-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16x2048x2048 1) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .i32⟩
  | .hbm, ⟨5, _⟩ => ⟨S16x2048x2048, .f32⟩
  | .hbm, ⟨6, _⟩ => ⟨S16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x2048, .f32⟩
  | .local _ .vmem, ⟨9, _⟩ => ⟨S1x512x2048, .f32⟩
  | .local _ .vmem, ⟨10, _⟩ => ⟨S1x512x64, .f32⟩
  | .local _ .vmem, ⟨11, _⟩ => ⟨S1x512x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .i32 = 32 ∨ (Rect.block (s := S16x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S16x2048x64.size a
  hwx0_5 : ∀ i : grid0.Coords, EltTy.bits .f32 = 32 ∨ (Rect.block (s := S16x2048x64) S1x512x64.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S_, .f32⟩
  | .hbm, ⟨18, _⟩ => ⟨S16x2048, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.KernelDots.lean ====
/-
  The body's two matrix products read at an index, over the extended reals. Queries times transposed keys, into a zero
  accumulator, is at (r, j) the sum over the 64 features of query entry times key entry; weights times values is at
  (r, d) the sum over the 2048 keys of weight times value entry. The contraction index of each product is one axis, so
  the sum over it is a sum over that axis's coordinates.
-/
import proofs.«124236_j44341242364479_1_alg».proof.Proof.Gen.KernelIdeal
import Idealize.ShloMosaic.PureOps.Ideal.Laws
import Idealize.ShloMosaic.Lib.ValueIdx

noncomputable section

namespace Cert.KernelIdeal.RowValue

open Cert.KernelIdeal Idealize.ShloMosaic Idealize.ShloMosaic.ValueIdx

/-! ## The two matrix products read at an index -/

theorem lhs1_0 (i : S512x2048.Idx) (c : dot_S512x64_S2048x64_S512x2048_1_1_0_0_n_n.contr.Idx) : (dot_S512x64_S2048x64_S512x2048_1_1_0_0_n_n.lhsIdx i c 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs1_1 (i : S512x2048.Idx) (c : dot_S512x64_S2048x64_S512x2048_1_1_0_0_n_n.contr.Idx) : (dot_S512x64_S2048x64_S512x2048_1_1_0_0_n_n.lhsIdx i c 1).val = (c ⟨0, by decide⟩).val :=
  dot_S512x64_S2048x64_S512x2048_1_1_0_0_n_n.lhsIdx_val_of_single rfl i c
theorem rhs1_0 (i : S512x2048.Idx) (c : dot_S512x64_S2048x64_S512x2048_1_1_0_0_n_n.contr.Idx) : (dot_S512x64_S2048x64_S512x2048_1_1_0_0_n_n.rhsIdx i c 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs1_1 (i : S512x2048.Idx) (c : dot_S512x64_S2048x64_S512x2048_1_1_0_0_n_n.contr.Idx) : (dot_S512x64_S2048x64_S512x2048_1_1_0_0_n_n.rhsIdx i c 1).val = (c ⟨0, by decide⟩).val :=
  dot_S512x64_S2048x64_S512x2048_1_1_0_0_n_n.rhsIdx_val_of_single rfl i c

/-- Queries times transposed keys into a zero accumulator: at (r, j), the sum over the features of the products. -/
theorem qk_apply (A : FVec Ideal S512x64 .f32) (B : FVec Ideal S2048x64 .f32) (r : Fin 512) (j : Fin 2048) :
    matmul dot_S512x64_S2048x64_S512x2048_1_1_0_0_n_n (some .fp32) A B (constant S512x2048 .f32 0x00000000#32) (ix2 r j) = ∑ d : Fin 64, A (ix2 r d) * B (ix2 j d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 r j) ((ValueIdx.contrEquiv1 dot_S512x64_S2048x64_S512x2048_1_1_0_0_n_n 64 rfl rfl).symm d) = ix2 r d := funext fun a => Fin.ext (by
    match a with
    | ⟨0, _⟩ => exact lhs1_0 _ _
    | ⟨1, _⟩ => exact (lhs1_1 _ _).trans hk)
  have er : dot_S512x64_S2048x64_S512x2048_1_1_0_0_n_n.rhsIdx (ix2 r j) ((ValueIdx.contrEquiv1 dot_S512x64_S2048x64_S512x2048_1_1_0_0_n_n 64 rfl rfl).symm d) = ix2 j d := funext fun a => Fin.ext (by
    match a with
    | ⟨0, _⟩ => exact rhs1_0 _ _
    | ⟨1, _⟩ => exact (rhs1_1 _ _).trans hk)
  rw [el, er]

theorem lhs2_0 (i : S512x64.Idx) (c : dot_S512x2048_S2048x64_S512x64_1_0_0_1_n_n.contr.Idx) : (dot_S512x2048_S2048x64_S512x64_1_0_0_1_n_n.lhsIdx i c 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs2_1 (i : S512x64.Idx) (c : dot_S512x2048_S2048x64_S512x64_1_0_0_1_n_n.contr.Idx) : (dot_S512x2048_S2048x64_S512x64_1_0_0_1_n_n.lhsIdx i c 1).val = (c ⟨0, by decide⟩).val :=
  dot_S512x2048_S2048x64_S512x64_1_0_0_1_n_n.lhsIdx_val_of_single rfl i c
theorem rhs2_0 (i : S512x64.Idx) (c : dot_S512x2048_S2048x64_S512x64_1_0_0_1_n_n.contr.Idx) : (dot_S512x2048_S2048x64_S512x64_1_0_0_1_n_n.rhsIdx i c 0).val = (c ⟨0, by decide⟩).val :=
  dot_S512x2048_S2048x64_S512x64_1_0_0_1_n_n.rhsIdx_val_of_single rfl i c
theorem rhs2_1 (i : S512x64.Idx) (c : dot_S512x2048_S2048x64_S512x64_1_0_0_1_n_n.contr.Idx) : (dot_S512x2048_S2048x64_S512x64_1_0_0_1_n_n.rhsIdx i c 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights times values into a zero accumulator: at (r, d), the sum over the keys of the products. -/
theorem pv_apply (A : FVec Ideal S512x2048 .f32) (B : FVec Ideal S2048x64 .f32) (r : Fin 512) (d : Fin 64) :
    matmul dot_S512x2048_S2048x64_S512x64_1_0_0_1_n_n (some .fp32) A B (constant S512x64 .f32 0x00000000#32) (ix2 r d) = ∑ j : Fin 2048, A (ix2 r j) * B (ix2 j d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun j _ => ?_
  have hk := ValueIdx.contrEquiv1_symm_val dot_S512x2048_S2048x64_S512x64_1_0_0_1_n_n 2048 rfl rfl j
  have el : dot_S512x2048_S2048x64_S512x64_1_0_0_1_n_n.lhsIdx (ix2 r d) ((ValueIdx.contrEquiv1 dot_S512x2048_S2048x64_S512x64_1_0_0_1_n_n 2048 rfl rfl).symm j) = ix2 r j := funext fun a => Fin.ext (by
    match a with
    | ⟨0, _⟩ => exact lhs2_0 _ _
    | ⟨1, _⟩ => exact (lhs2_1 _ _).trans hk)
  have er : dot_S512x2048_S2048x64_S512x64_1_0_0_1_n_n.rhsIdx (ix2 r d) ((ValueIdx.contrEquiv1 dot_S512x2048_S2048x64_S512x64_1_0_0_1_n_n 2048 rfl rfl).symm j) = ix2 j d := funext fun a => Fin.ext (by
    match a with
    | ⟨0, _⟩ => exact (rhs2_0 _ _).trans hk
    | ⟨1, _⟩ => exact rhs2_1 _ _)
  rw [el, er]

end Cert.KernelIdeal.RowValue

end
-- ==== Proof.Spec.lean ====
/-
  Masked soft-max attention over the extended reals, one row of scores at a time.

  For a batch `b`, a query row `n` and a key row `j` the SCORE is the dot product of the query and the key over
  the 64 features, divided by the scale 8, replaced by −∞ where the mask bit is set, and divided by the
  temperature. A row's TOP is the maximum of −∞ and its 2048 scores; a row's WEIGHTS are the exponentials of
  the scores less the top, each divided by their sum; the OUTPUT at feature `d` is the sum over the keys of the
  weight times the value row's entry. The three float words (−∞, 8, the temperature) are kept as words: both
  programs carry the same ones, so what they denote is never needed.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The word of −∞, read as an extended real. -/
abbrev negInf : EReal := Ideal.ofBits .f32 0xFF800000#32
/-- The word of the scale (8), read as an extended real. -/
abbrev scale : EReal := Ideal.ofBits .f32 0x41000000#32
/-- The word of the temperature, read as an extended real. -/
abbrev temperature : EReal := Ideal.ofBits .f32 0x283424DC#32

/-- A row's top: the maximum of −∞ and the row's entries. -/
def rowTop (s : Fin 2048 → EReal) : EReal :=
  max negInf ((Finset.univ : Finset (Fin 2048)).fold max negInf s)

/-- A row's exponentials: each entry less the top, exponentiated. -/
def rowExp (s : Fin 2048 → EReal) (j : Fin 2048) : EReal := Ideal.exp (s j - rowTop s)

/-- A row's soft-max weights: each exponential over the sum of them all. -/
def rowWeight (s : Fin 2048 → EReal) (j : Fin 2048) : EReal :=
  Ideal.div (rowExp s j) (∑ l : Fin 2048, rowExp s l)

/-- A row of scores from its dot products and its mask bits. -/
def scoreOf (dot : Fin 2048 → EReal) (bit : Fin 2048 → BitVec 1) (j : Fin 2048) : EReal :=
  Ideal.div (Scalar.select (bit j) negInf (Ideal.div (dot j) scale)) temperature

/-- The scores of query row `(b, n)` against every key row of batch `b`. -/
def score (q k : (⟨3, ![16, 2048, 64]⟩ : Shape).Idx → EReal) (mask : (⟨3, ![16, 2048, 2048]⟩ : Shape).Idx → BitVec 1)
    (b : Fin 16) (n : Fin 2048) : Fin 2048 → EReal :=
  scoreOf (fun j => ∑ d : Fin 64, q (ix3 b n d) * k (ix3 b j d)) (fun j => mask (ix3 b n j))

/-- The attention weights, as one array over (batch, query row, key row). -/
def weights (q k : (⟨3, ![16, 2048, 64]⟩ : Shape).Idx → EReal) (mask : (⟨3, ![16, 2048, 2048]⟩ : Shape).Idx → BitVec 1) :
    (⟨3, ![16, 2048, 2048]⟩ : Shape).Idx → EReal :=
  fun i => rowWeight (score q k mask (i 0) (i 1)) (i 2)

/-- The attention output, as one array over (batch, query row, feature). -/
def output (q k v : (⟨3, ![16, 2048, 64]⟩ : Shape).Idx → EReal) (mask : (⟨3, ![16, 2048, 2048]⟩ : Shape).Idx → BitVec 1) :
    (⟨3, ![16, 2048, 64]⟩ : Shape).Idx → EReal :=
  fun i => ∑ j : Fin 2048, weights q k mask (ix3 (i 0) (i 1) j) * v (ix3 (i 0) j (i 2))

end Cert.Attention

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.KernelRows.lean ====
/-
  What one grid point's body computes, read at an index of its block. The body's value for the weights block is a
  row-wise soft-max of a 512 × 2048 matrix of scores: the query block times the transposed key block over the 64
  features, divided by the scale, replaced by −∞ where the widened mask word is not zero, divided by the temperature.
  Row r of that matrix is a row of scores in the specification's sense, and the body's row maximum, exponentials, row
  sum and quotient are that row's top, exponentials and weights. The body's value for the output block is the weights
  block times the value block: at (r, d), the sum over the keys of weight times value entry.
-/
import proofs.«124236_j44341242364479_1_alg».proof.Proof.Gen.KernelIdeal.Skeleton
import proofs.«124236_j44341242364479_1_alg».proof.Proof.KernelDots
import proofs.«124236_j44341242364479_1_alg».proof.Proof.Spec
import proofs.«124236_j44341242364479_1_alg».proof.Proof.LibRows

noncomputable section

namespace Cert.KernelIdeal.RowValue

open Cert.KernelIdeal Cert.KernelIdeal.Gen Idealize.ShloMosaic Idealize.ShloMosaic.ValueIdx Cert.Attention

/-! ## The body's value as a soft-max of a score matrix -/

section Generic
variable {F : FTy → Type} [FloatOps F]

/-- The block's matrix of scores, from the query block, the key block and the widened mask block. -/
def scoreMat (P0 : Vec F S1x512x64 .f32) (P1 : Vec F S1x2048x64 .f32) (P3 : Vec F S1x512x2048 .i32) : FVec F S512x2048 .f32 :=
  divf
    (select (cmpi .ne (shapeCast S512x2048 P3 shapeCasts_S1x512x2048_S512x2048) (constantI S512x2048 32 0#32))
      (broadcast S512x2048 (Scalar.ofBits .f32 0xFF800000#32))
      (divf
        (matmul dot_S512x64_S2048x64_S512x2048_1_1_0_0_n_n (some .fp32) (shapeCast S512x64 P0 shapeCasts_S1x512x64_S512x64)
          (shapeCast S2048x64 P1 shapeCasts_S1x2048x64_S2048x64) (constant S512x2048 .f32 0x00000000#32))
        (broadcast S512x2048 (Scalar.ofBits .f32 0x41000000#32))))
    (broadcast S512x2048 (Scalar.ofBits .f32 0x283424DC#32))

/-- Each row's maximum (from −∞, and once more against −∞), spread over the row. -/
def topCol (X : FVec F S512x2048 .f32) : FVec F S512x2048 .f32 :=
  broadcastTo S512x2048
    (shapeCast S512x1
      (maximumf (broadcast S512 (Scalar.ofBits .f32 0xFF800000#32))
        (multiReduction .maximumf [1] S512 X 0xFF800000#32 reduces_S512x2048_S512 (.inl rfl) rfl))
      shapeCasts_S512_S512x1)
    broadcasts_S512x1_S512x2048

/-- The exponentials of the entries less their row's maximum. -/
def expMat (X : FVec F S512x2048 .f32) : FVec F S512x2048 .f32 := exp (subf X (topCol X))

/-- Each row's sum, spread over the row. -/
def sumCol (E : FVec F S512x2048 .f32) : FVec F S512x2048 .f32 :=
  broadcastTo S512x2048
    (shapeCast S512x1 (multiReduction .add [1] S512 E 0x00000000#32 reduces_S512x2048_S512 (.inl rfl) rfl) shapeCasts_S512_S512x1)
    broadcasts_S512x1_S512x2048

/-- The row-wise soft-max. -/
def softmaxRows (X : FVec F S512x2048 .f32) : FVec F S512x2048 .f32 := divf (expMat X) (sumCol (expMat X))

/-- The body's weights value is the row-wise soft-max of the score matrix. -/
theorem pay2_eq (P0 : Vec F S1x512x64 .f32) (P1 : Vec F S1x2048x64 .f32) (P3 : Vec F S1x512x2048 .i32) :
    k0_pay2 P0 P1 P3 = softmaxRows (scoreMat P0 P1 P3) := rfl

/-- The body's output value is the weights value times the value block. -/
theorem pay4_eq (P0 : Vec F S1x512x64 .f32) (P1 : Vec F S1x2048x64 .f32) (P2 : Vec F S1x2048x64 .f32) (P3 : Vec F S1x512x2048 .i32) :
    k0_pay4 P0 P1 P2 P3 = matmul dot_S512x2048_S2048x64_S512x64_1_0_0_1_n_n (some .fp32) (k0_pay2 P0 P1 P3)
      (shapeCast S2048x64 P2 shapeCasts_S1x2048x64_S2048x64) (constant S512x64 .f32 0x00000000#32) := rfl

end Generic

/-! ## The score matrix and its soft-max, row by row -/

/-- Row r of the score matrix is the row of scores of the block's query row r against the block's key rows, the mask
    bit of key j being "the widened mask word at (r, j) is not zero". -/
theorem scoreMat_apply (P0 : Vec Ideal S1x512x64 .f32) (P1 : Vec Ideal S1x2048x64 .f32) (P3 : Vec Ideal S1x512x2048 .i32)
    (r : Fin 512) (j : Fin 2048) :
    scoreMat (F := Ideal) P0 P1 P3 (ix2 r j)
      = scoreOf (fun j' => ∑ d : Fin 64, P0 (ix3 (0 : Fin 1) r d) * P1 (ix3 (0 : Fin 1) j' d))
          (fun j' => IntOp.cmpi .ne (P3 (ix3 (0 : Fin 1) r j')) 0#32) j := by
  have hq : ∀ d : Fin 64, shapeCast S512x64 P0 shapeCasts_S1x512x64_S512x64 (ix2 r d) = P0 (ix3 (0 : Fin 1) r d) :=
    fun d => shapeCast_1ab_ab_apply P0 _ r d
  have hk : ∀ d : Fin 64, shapeCast S2048x64 P1 shapeCasts_S1x2048x64_S2048x64 (ix2 j d) = P1 (ix3 (0 : Fin 1) j d) :=
    fun d => shapeCast_1ab_ab_apply P1 _ j d
  have hm : shapeCast S512x2048 P3 shapeCasts_S1x512x2048_S512x2048 (ix2 r j) = P3 (ix3 (0 : Fin 1) r j) :=
    shapeCast_1ab_ab_apply P3 _ r j
  unfold scoreMat scoreOf
  show Ideal.div (Scalar.select (IntOp.cmpi .ne (shapeCast S512x2048 P3 shapeCasts_S1x512x2048_S512x2048 (ix2 r j)) 0#32)
      (Ideal.ofBits .f32 0xFF800000#32)
      (Ideal.div (matmul (F := Ideal) dot_S512x64_S2048x64_S512x2048_1_1_0_0_n_n (some .fp32) (shapeCast S512x64 P0 shapeCasts_S1x512x64_S512x64)
          (shapeCast S2048x64 P1 shapeCasts_S1x2048x64_S2048x64) (constant S512x2048 .f32 0x00000000#32) (ix2 r j))
        (Ideal.ofBits .f32 0x41000000#32)))
    (Ideal.ofBits .f32 0x283424DC#32) = _
  rw [hm, qk_apply]
  simp only [hq, hk]

/-- The spread row maximum at (r, j) is the top of row r. -/
theorem topCol_apply (X : FVec Ideal S512x2048 .f32) (r : Fin 512) (j : Fin 2048) :
    topCol X (ix2 r j) = rowTop (fun j' => X (ix2 r j')) := by
  unfold topCol rowTop
  exact Cert.LibRows.spreadRowMax_apply X (Scalar.ofBits .f32 0xFF800000#32) 0xFF800000#32 reduces_S512x2048_S512 (.inl rfl) rfl
    shapeCasts_S512_S512x1 broadcasts_S512x1_S512x2048 r j

/-- The exponentials at (r, j) are row r's exponentials. -/
theorem expMat_apply (X : FVec Ideal S512x2048 .f32) (r : Fin 512) (j : Fin 2048) :
    expMat X (ix2 r j) = rowExp (fun j' => X (ix2 r j')) j := by
  unfold expMat rowExp
  show Ideal.exp (X (ix2 r j) - topCol X (ix2 r j)) = _
  rw [topCol_apply]

/-- The spread row sum at (r, j) is the sum of row r. -/
theorem sumCol_apply (E : FVec Ideal S512x2048 .f32) (r : Fin 512) (j : Fin 2048) :
    sumCol E (ix2 r j) = ∑ l : Fin 2048, E (ix2 r l) := by
  unfold sumCol
  exact Cert.LibRows.spreadRowSum_apply E 0x00000000#32 reduces_S512x2048_S512 (.inl rfl) rfl
    shapeCasts_S512_S512x1 broadcasts_S512x1_S512x2048 r j

/-- The row-wise soft-max at (r, j) is row r's weight of entry j. -/
theorem softmaxRows_apply (X : FVec Ideal S512x2048 .f32) (r : Fin 512) (j : Fin 2048) :
    softmaxRows X (ix2 r j) = rowWeight (fun j' => X (ix2 r j')) j := by
  unfold softmaxRows rowWeight
  show Ideal.div (expMat X (ix2 r j)) (sumCol (expMat X) (ix2 r j)) = _
  rw [sumCol_apply, expMat_apply]
  simp only [expMat_apply]

/-! ## The body's two values at an index -/

/-- The weights value at (r, j): the weight of key j in the row of scores of the block's query row r. -/
theorem pay2_apply (P0 : Vec Ideal S1x512x64 .f32) (P1 : Vec Ideal S1x2048x64 .f32) (P3 : Vec Ideal S1x512x2048 .i32)
    (r : Fin 512) (j : Fin 2048) :
    k0_pay2 (F := Ideal) P0 P1 P3 (ix2 r j)
      = rowWeight (scoreOf (fun j' => ∑ d : Fin 64, P0 (ix3 (0 : Fin 1) r d) * P1 (ix3 (0 : Fin 1) j' d))
          (fun j' => IntOp.cmpi .ne (P3 (ix3 (0 : Fin 1) r j')) 0#32)) j := by
  rw [pay2_eq, softmaxRows_apply]
  exact congrArg (fun s => rowWeight s j) (funext fun j' => scoreMat_apply P0 P1 P3 r j')

/-- The output value at (r, d): the sum over the keys of the weights value times the value block's entry. -/
theorem pay4_apply (P0 : Vec Ideal S1x512x64 .f32) (P1 : Vec Ideal S1x2048x64 .f32) (P2 : Vec Ideal S1x2048x64 .f32)
    (P3 : Vec Ideal S1x512x2048 .i32) (r : Fin 512) (d : Fin 64) :
    k0_pay4 (F := Ideal) P0 P1 P2 P3 (ix2 r d)
      = ∑ j : Fin 2048, k0_pay2 (F := Ideal) P0 P1 P3 (ix2 r j) * P2 (ix3 (0 : Fin 1) j d) := by
  rw [pay4_eq, pv_apply]
  refine Finset.sum_congr rfl fun j _ => ?_
  rw [shapeCast_1ab_ab_apply]

end Cert.KernelIdeal.RowValue

end
-- ==== Proof.KernelPoint.lean ====
/-
  One grid point against the whole arrays. Grid point (b, g) holds query rows g·512 … g·512 + 511 of batch b, all the
  key and value rows of batch b, and those query rows of the mask, each mask bit widened to a 32-bit word. A widened
  bit is "not zero" exactly when the bit is set, so the row of scores the body forms for its query row r is the
  specification's row of scores for query row (b, g·512 + r); hence the body's weights value at (r, j) is the weights
  array at (b, g·512 + r, j), and its output value at (r, d) is the output array at (b, g·512 + r, d).
-/
import proofs.«124236_j44341242364479_1_alg».proof.Proof.KernelRows

noncomputable section

namespace Cert.KernelIdeal.RowValue

open Cert.KernelIdeal Cert.KernelIdeal.Gen Idealize.ShloMosaic Idealize.ShloMosaic.ValueIdx Cert.Attention

/-- A mask bit widened to 32 bits is not the zero word exactly when the bit is set. -/
theorem widened_ne_zero (x : BitVec 1) : IntOp.cmpi .ne (x.setWidth 32) 0#32 = x := by
  rcases BitVec.eq_zero_or_eq_one x with h | h <;> subst h <;> decide

section Point
variable (Q K W : S16x2048x64.Idx → EReal) (Mk : S16x2048x2048.Idx → BitVec 1)
  (P0 : Vec Ideal S1x512x64 .f32) (P1 : Vec Ideal S1x2048x64 .f32) (P2 : Vec Ideal S1x2048x64 .f32) (P3 : Vec Ideal S1x512x2048 .i32)
  (b : Fin 16) (g : Fin 4)

/-- Query row r of grid point (b, g) as a row of the whole arrays. -/
abbrev rowOf (g : Fin 4) (r : Fin 512) : Fin 2048 := ⟨g.val * 512 + r.val, by have := g.isLt; have := r.isLt; omega⟩

/-- The body's weights value at (r, j) is the weights array at (b, g·512 + r, j). -/
theorem point_weights
    (h0 : ∀ (r : Fin 512) (d : Fin 64), P0 (ix3 (0 : Fin 1) r d) = Q (ix3 b (rowOf g r) d))
    (h1 : ∀ (j : Fin 2048) (d : Fin 64), P1 (ix3 (0 : Fin 1) j d) = K (ix3 b j d))
    (h3 : ∀ (r : Fin 512) (j : Fin 2048), P3 (ix3 (0 : Fin 1) r j) = (Mk (ix3 b (rowOf g r) j)).setWidth 32)
    (r : Fin 512) (j : Fin 2048) :
    k0_pay2 (F := Ideal) P0 P1 P3 (ix2 r j) = weights Q K Mk (ix3 b (rowOf g r) j) := by
  rw [pay2_apply]
  unfold weights score
  show rowWeight _ j = rowWeight _ j
  refine congrArg (fun s => rowWeight s j) ?_
  refine congrArg₂ scoreOf (funext fun j' => Finset.sum_congr rfl fun d _ => ?_) (funext fun j' => ?_)
  · rw [h0, h1]
  · rw [h3, widened_ne_zero]

/-- The body's output value at (r, d) is the output array at (b, g·512 + r, d). -/
theorem point_output
    (h0 : ∀ (r : Fin 512) (d : Fin 64), P0 (ix3 (0 : Fin 1) r d) = Q (ix3 b (rowOf g r) d))
    (h1 : ∀ (j : Fin 2048) (d : Fin 64), P1 (ix3 (0 : Fin 1) j d) = K (ix3 b j d))
    (h2 : ∀ (j : Fin 2048) (d : Fin 64), P2 (ix3 (0 : Fin 1) j d) = W (ix3 b j d))
    (h3 : ∀ (r : Fin 512) (j : Fin 2048), P3 (ix3 (0 : Fin 1) r j) = (Mk (ix3 b (rowOf g r) j)).setWidth 32)
    (r : Fin 512) (d : Fin 64) :
    k0_pay4 (F := Ideal) P0 P1 P2 P3 (ix2 r d) = output Q K W Mk (ix3 b (rowOf g r) d) := by
  rw [pay4_apply]
  unfold output
  refine Finset.sum_congr rfl fun j _ => ?_
  rw [point_weights Q K Mk P0 P1 P3 b g h0 h1 h3 r j, h2]

/-- The same at an index of the block as the body stores it (a leading unit axis), against any index of the weights
    array with those coordinates. -/
theorem point_weights_at
    (h0 : ∀ (r : Fin 512) (d : Fin 64), P0 (ix3 (0 : Fin 1) r d) = Q (ix3 b (rowOf g r) d))
    (h1 : ∀ (j : Fin 2048) (d : Fin 64), P1 (ix3 (0 : Fin 1) j d) = K (ix3 b j d))
    (h3 : ∀ (r : Fin 512) (j : Fin 2048), P3 (ix3 (0 : Fin 1) r j) = (Mk (ix3 b (rowOf g r) j)).setWidth 32)
    (y : S1x512x2048.Idx) (i : S16x2048x2048.Idx)
    (e0 : (i 0).val = b.val) (e1 : (i 1).val = g.val * 512 + (y 1).val) (e2 : (i 2).val = (y 2).val) :
    k0_pay3 (F := Ideal) P0 P1 P3 y = weights Q K Mk i := by
  obtain ⟨u, r, j, rfl⟩ : ∃ (u : Fin 1) (r : Fin 512) (j : Fin 2048), y = ix3 u r j := ⟨y 0, y 1, y 2, eq_ix3 y⟩
  have hi : i = ix3 b (rowOf g r) j := funext fun a => Fin.ext (by
    match a with
    | ⟨0, _⟩ => exact e0
    | ⟨1, _⟩ => exact e1
    | ⟨2, _⟩ => exact e2)
  subst hi
  show shapeCast S1x512x2048 (k0_pay2 (F := Ideal) P0 P1 P3) shapeCasts_S512x2048_S1x512x2048 (ix3 u r j) = _
  rw [shapeCast_ab_1ab_apply]
  exact point_weights Q K Mk P0 P1 P3 b g h0 h1 h3 r j

/-- The same for the output block. -/
theorem point_output_at
    (h0 : ∀ (r : Fin 512) (d : Fin 64), P0 (ix3 (0 : Fin 1) r d) = Q (ix3 b (rowOf g r) d))
    (h1 : ∀ (j : Fin 2048) (d : Fin 64), P1 (ix3 (0 : Fin 1) j d) = K (ix3 b j d))
    (h2 : ∀ (j : Fin 2048) (d : Fin 64), P2 (ix3 (0 : Fin 1) j d) = W (ix3 b j d))
    (h3 : ∀ (r : Fin 512) (j : Fin 2048), P3 (ix3 (0 : Fin 1) r j) = (Mk (ix3 b (rowOf g r) j)).setWidth 32)
    (y : S1x512x64.Idx) (i : S16x2048x64.Idx)
    (e0 : (i 0).val = b.val) (e1 : (i 1).val = g.val * 512 + (y 1).val) (e2 : (i 2).val = (y 2).val) :
    k0_pay1 (k0_pay4 (F := Ideal) P0 P1 P2 P3) y = output Q K W Mk i := by
  obtain ⟨u, r, d, rfl⟩ : ∃ (u : Fin 1) (r : Fin 512) (d : Fin 64), y = ix3 u r d := ⟨y 0, y 1, y 2, eq_ix3 y⟩
  have hi : i = ix3 b (rowOf g r) d := funext fun a => Fin.ext (by
    match a with
    | ⟨0, _⟩ => exact e0
    | ⟨1, _⟩ => exact e1
    | ⟨2, _⟩ => exact e2)
  subst hi
  show shapeCast S1x512x64 (k0_pay4 (F := Ideal) P0 P1 P2 P3) shapeCasts_S512x64_S1x512x64 (ix3 u r d) = _
  rw [shapeCast_ab_1ab_apply]
  exact point_output Q K W Mk P0 P1 P2 P3 b g h0 h1 h2 h3 r d

end Point

end Cert.KernelIdeal.RowValue

end
-- ==== Proof.KernelBlocks.lean ====
/-
  From grid points to whole arrays. The grid is 16 batches × 4 groups of 512 query rows. At point (b, g) the query,
  mask, weights and output windows sit at block (b, g, 0) and the key and value windows at block (b, 0, 0); a block's
  element at (0, r, c) is the array's element at (b, g·512 + r, c) (for keys and values: (b, r, c)). The mask array
  the region finds is the argument's bits widened to 32-bit words. So what a point writes back is its block of the
  specification's weights (and output) array, the 64 blocks tile each array, and each array ends as the
  specification's.
-/
import proofs.«124236_j44341242364479_1_alg».proof.Proof.Gen.KernelIdeal.Value
import proofs.«124236_j44341242364479_1_alg».proof.Proof.KernelPoint
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.Attention Cert.KernelIdeal.RowValue
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The index maps, decided over the 64 grid points: every window sits in the batch of the weights window; the query,
    mask and output windows also in its group of query rows; the key and value windows at the first block of rows. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_5.index t (0 : Fin 3) = win0_4.index t (0 : Fin 3) ∧ win0_5.index t (1 : Fin 3) = win0_4.index t (1 : Fin 3) ∧ win0_5.index t (2 : Fin 3) = 0
    ∧ win0_4.index t (0 : Fin 3) < 16 ∧ win0_4.index t (1 : Fin 3) < 4 ∧ win0_4.index t (2 : Fin 3) = 0 :=
  (by decide +kernel : ∀ t : Fin grid0.N, _)

/-- Every (batch, group) is some point's. -/
theorem idx_onto : ∀ (b : Fin 16) (g : Fin 4), ∃ t : Fin cfg0.N, win0_4.index t = ![b.val, g.val, 0] :=
  (by decide +kernel : ∀ (b : Fin 16) (g : Fin 4), ∃ t : Fin grid0.N, win0_4.index t = ![b.val, g.val, 0])

/-- The mask array as the region finds it: the argument's bits, each widened to a 32-bit word. -/
theorem V_mask (c : Dev nD) (i : S16x2048x2048.Idx) :
    (V m c main_v0 : S16x2048x2048.Idx → BitVec 32) i
      = ((m ((c : Thread nD τ).loc main_arg3) : S16x2048x2048.Idx → BitVec 1) i).setWidth 32 := by
  have e : (V m c main_v0 : S16x2048x2048.Idx → BitVec 32)
      = extui 32 (m ((c : Thread nD τ).loc main_arg3) : S16x2048x2048.Idx → BitVec 1) := by
    dsimp only [Gen.V, Gen.hostOps0]; after_results
  rw [e]; rfl

/-- The query block at (0, r, d) is the query argument at (b, g·512 + r, d). -/
theorem read_query (c : Dev nD) (t : Fin cfg0.N) (b : Fin 16) (g : Fin 4)
    (hb : win0_4.index t (0 : Fin 3) = b.val) (hg : win0_4.index t (1 : Fin 3) = g.val) (r : Fin 512) (d : Fin 64) :
    iblk m c 0 t (ix3 (0 : Fin 1) r d) = m ((c : Thread nD τ).loc main_arg0) (ix3 b (rowOf g r) d) := by
  obtain ⟨e0, e1, e2, -⟩ := idx_facts t
  show V m c main_arg0 (((cfg0.win 0).blk t).view.emb (ix3 (0 : Fin 1) r d)) = _
  rw [V_main_arg0]
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 512 + 1 * r.val = g.val * 512 + r.val; omega
  | ⟨2, _⟩ => show win0_0.index t (2 : Fin 3) * 64 + 1 * d.val = d.val; omega

/-- The key block at (0, j, d) is the key argument at (b, j, d). -/
theorem read_key (c : Dev nD) (t : Fin cfg0.N) (b : Fin 16)
    (hb : win0_4.index t (0 : Fin 3) = b.val) (j : Fin 2048) (d : Fin 64) :
    iblk m c 1 t (ix3 (0 : Fin 1) j d) = m ((c : Thread nD τ).loc main_arg1) (ix3 b j d) := by
  obtain ⟨-, -, -, e0, e1, e2, -⟩ := idx_facts t
  show V m c main_arg1 (((cfg0.win 1).blk t).view.emb (ix3 (0 : Fin 1) j d)) = _
  rw [V_main_arg1]
  refine congrArg (m ((c : Thread nD τ).loc main_arg1)) (funext fun a => Fin.ext ?_)
  match a with
  | ⟨0, _⟩ => show win0_1.index t (0 : Fin 3) * 1 + 1 * 0 = b.val; omega
  | ⟨1, _⟩ => show win0_1.index t (1 : Fin 3) * 2048 + 1 * j.val = j.val; omega
  | ⟨2, _⟩ => show win0_1.index t (2 : Fin 3) * 64 + 1 * d.val = d.val; omega

/-- The value block at (0, j, d) is the value argument at (b, j, d). -/
theorem read_value (c : Dev nD) (t : Fin cfg0.N) (b : Fin 16)
    (hb : win0_4.index t (0 : Fin 3) = b.val) (j : Fin 2048) (d : Fin 64) :
    iblk m c 2 t (ix3 (0 : Fin 1) j d) = m ((c : Thread nD τ).loc main_arg2) (ix3 b j d) := by
  obtain ⟨-, -, -, -, -, -, e0, e1, e2, -⟩ := idx_facts t
  show V m c main_arg2 (((cfg0.win 2).blk t).view.emb (ix3 (0 : Fin 1) j d)) = _
  rw [V_main_arg2]
  refine congrArg (m ((c : Thread nD τ).loc main_arg2)) (funext fun a => Fin.ext ?_)
  match a with
  | ⟨0, _⟩ => show win0_2.index t (0 : Fin 3) * 1 + 1 * 0 = b.val; omega
  | ⟨1, _⟩ => show win0_2.index t (1 : Fin 3) * 2048 + 1 * j.val = j.val; omega
  | ⟨2, _⟩ => show win0_2.index t (2 : Fin 3) * 64 + 1 * d.val = d.val; omega

/-- The mask block at (0, r, j) is the mask argument's bit at (b, g·512 + r, j), widened. -/
theorem read_mask (c : Dev nD) (t : Fin cfg0.N) (b : Fin 16) (g : Fin 4)
    (hb : win0_4.index t (0 : Fin 3) = b.val) (hg : win0_4.index t (1 : Fin 3) = g.val) (r : Fin 512) (j : Fin 2048) :
    iblk m c 3 t (ix3 (0 : Fin 1) r j)
      = ((m ((c : Thread nD τ).loc main_arg3) : S16x2048x2048.Idx → BitVec 1) (ix3 b (rowOf g r) j)).setWidth 32 := by
  obtain ⟨-, -, -, -, -, -, -, -, -, e0, e1, e2, -⟩ := idx_facts t
  show (V m c main_v0 : S16x2048x2048.Idx → BitVec 32) (((cfg0.win 3).blk t).view.emb (ix3 (0 : Fin 1) r j)) = _
  rw [V_mask]
  refine congrArg (fun i => ((m ((c : Thread nD τ).loc main_arg3) : S16x2048x2048.Idx → BitVec 1) i).setWidth 32) (funext fun a => Fin.ext ?_)
  match a with
  | ⟨0, _⟩ => show win0_3.index t (0 : Fin 3) * 1 + 1 * 0 = b.val; omega
  | ⟨1, _⟩ => show win0_3.index t (1 : Fin 3) * 512 + 1 * r.val = g.val * 512 + r.val; omega
  | ⟨2, _⟩ => show win0_3.index t (2 : Fin 3) * 2048 + 1 * j.val = j.val; omega

/-! ## The weights array -/

/-- What point `t` writes back to the weights array is its block of the specification's weights. -/
theorem flushed_weights (c : Dev nD) (t : Fin cfg0.N) :
    (dats m 0 c).flushed 4 t = ((cfg0.win 4).blk t).view.read (Elt Ideal)
      (weights (m ((c : Thread nD τ).loc main_arg0)) (m ((c : Thread nD τ).loc main_arg1)) (m ((c : Thread nD τ).loc main_arg3))) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz, View.ld_unit_zero (S := S1x512x2048) hz]
  have hf := idx_facts t
  have hb : win0_4.index t (0 : Fin 3) < 16 := hf.2.2.2.2.2.2.2.2.2.2.2.2.2.2.2.1
  have hg : win0_4.index t (1 : Fin 3) < 4 := hf.2.2.2.2.2.2.2.2.2.2.2.2.2.2.2.2.1
  have h2 : win0_4.index t (2 : Fin 3) = 0 := hf.2.2.2.2.2.2.2.2.2.2.2.2.2.2.2.2.2
  funext y
  have hy0 : (y 0).val < 1 := (y 0).isLt
  have hy1 : (y 1).val < 512 := (y 1).isLt
  have hy2 : (y 2).val < 2048 := (y 2).isLt
  refine point_weights_at (m ((c : Thread nD τ).loc main_arg0)) (m ((c : Thread nD τ).loc main_arg1)) (m ((c : Thread nD τ).loc main_arg3))
    (iblk m c 0 t) (iblk m c 1 t) (iblk m c 3 t) ⟨win0_4.index t (0 : Fin 3), hb⟩ ⟨win0_4.index t (1 : Fin 3), hg⟩
    (fun r d => read_query m c t _ _ rfl rfl r d) (fun j d => read_key m c t _ rfl j d) (fun r j => read_mask m c t _ _ rfl rfl r j)
    y (((cfg0.win 4).blk t).view.emb y) ?_ ?_ ?_
  · show win0_4.index t (0 : Fin 3) * 1 + 1 * (y 0).val = win0_4.index t (0 : Fin 3); omega
  · show win0_4.index t (1 : Fin 3) * 512 + 1 * (y 1).val = win0_4.index t (1 : Fin 3) * 512 + (y 1).val; omega
  · show win0_4.index t (2 : Fin 3) * 2048 + 1 * (y 2).val = (y 2).val; omega

/-- An index of the weights array is in point `t`'s block iff each coordinate is in the block's range on its axis. -/
theorem mem_blk_weights (t : Fin cfg0.N) (i : S16x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v1_0).slice (win0_4.rect t)).set ↔ _
  rw [View.set_slice_whole, Rect.mem_set_unit]
  exact Iff.rfl

/-- The blocks tile the weights array: row n of batch b is in the block of point (b, n / 512). -/
theorem cover_weights (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk_weights]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The weights array after the run is the specification's. -/
theorem final_weights (c : Dev nD) :
    (dats m 0 c).arrAt 4 cfg0.N
      = weights (m ((c : Thread nD τ).loc main_arg0)) (m ((c : Thread nD τ).loc main_arg1)) (m ((c : Thread nD τ).loc main_arg3)) :=
  (dats m 0 c).arrAt_eq_of_cover 4 _ (fun t _ => flushed_weights m c t) cover_weights

/-! ## The output array -/

/-- What point `t` writes back to the output array is its block of the specification's output. -/
theorem flushed_output (c : Dev nD) (t : Fin cfg0.N) :
    (dats m 0 c).flushed 5 t = ((cfg0.win 5).blk t).view.read (Elt Ideal)
      (output (m ((c : Thread nD τ).loc main_arg0)) (m ((c : Thread nD τ).loc main_arg1)) (m ((c : Thread nD τ).loc main_arg2))
        (m ((c : Thread nD τ).loc main_arg3))) := by
  show (cfg0.win 5).cut (grid0.coords t) ((dats m 0 c).after 5 t) = _
  rw [after0_5]
  unfold out0_5
  rw [View.canon_unit_zero hz]
  simp only [View.ld_unit_zero (S := S1x512x64) hz, View.ld_unit_zero (S := S1x2048x64) hz, View.ld_unit_zero (S := S1x512x2048) hz]
  have hf := idx_facts t
  have e0 : win0_5.index t (0 : Fin 3) = win0_4.index t (0 : Fin 3) := hf.2.2.2.2.2.2.2.2.2.2.2.2.1
  have e1 : win0_5.index t (1 : Fin 3) = win0_4.index t (1 : Fin 3) := hf.2.2.2.2.2.2.2.2.2.2.2.2.2.1
  have e2 : win0_5.index t (2 : Fin 3) = 0 := hf.2.2.2.2.2.2.2.2.2.2.2.2.2.2.1
  have hb : win0_4.index t (0 : Fin 3) < 16 := hf.2.2.2.2.2.2.2.2.2.2.2.2.2.2.2.1
  have hg : win0_4.index t (1 : Fin 3) < 4 := hf.2.2.2.2.2.2.2.2.2.2.2.2.2.2.2.2.1
  funext y
  have hy0 : (y 0).val < 1 := (y 0).isLt
  have hy1 : (y 1).val < 512 := (y 1).isLt
  have hy2 : (y 2).val < 64 := (y 2).isLt
  refine point_output_at (m ((c : Thread nD τ).loc main_arg0)) (m ((c : Thread nD τ).loc main_arg1)) (m ((c : Thread nD τ).loc main_arg2))
    (m ((c : Thread nD τ).loc main_arg3))
    (iblk m c 0 t) (iblk m c 1 t) (iblk m c 2 t) (iblk m c 3 t) ⟨win0_4.index t (0 : Fin 3), hb⟩ ⟨win0_4.index t (1 : Fin 3), hg⟩
    (fun r d => read_query m c t _ _ rfl rfl r d) (fun j d => read_key m c t _ rfl j d) (fun j d => read_value m c t _ rfl j d)
    (fun r j => read_mask m c t _ _ rfl rfl r j)
    y (((cfg0.win 5).blk t).view.emb y) ?_ ?_ ?_
  · show win0_5.index t (0 : Fin 3) * 1 + 1 * (y 0).val = win0_4.index t (0 : Fin 3); omega
  · show win0_5.index t (1 : Fin 3) * 512 + 1 * (y 1).val = win0_4.index t (1 : Fin 3) * 512 + (y 1).val; omega
  · show win0_5.index t (2 : Fin 3) * 64 + 1 * (y 2).val = (y 2).val; omega

/-- An index of the output array is in point `t`'s block iff each coordinate is in the block's range on its axis. -/
theorem mem_blk_output (t : Fin cfg0.N) (i : S16x2048x64.Idx) :
    i ∈ ((cfg0.win 5).blk t).view.set ↔ ∀ a : Fin 3, win0_5.index t a * S1x512x64.size a ≤ (i a).val ∧ (i a).val < win0_5.index t a * S1x512x64.size a + S1x512x64.size a := by
  show i ∈ ((View.whole main_v1_1).slice (win0_5.rect t)).set ↔ _
  rw [View.set_slice_whole, Rect.mem_set_unit]
  exact Iff.rfl

/-- The blocks tile the output array. -/
theorem cover_output (i : S16x2048x64.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have hf := idx_facts t
  have e0 : win0_5.index t (0 : Fin 3) = win0_4.index t (0 : Fin 3) := hf.2.2.2.2.2.2.2.2.2.2.2.2.1
  have e1 : win0_5.index t (1 : Fin 3) = win0_4.index t (1 : Fin 3) := hf.2.2.2.2.2.2.2.2.2.2.2.2.2.1
  have e2 : win0_5.index t (2 : Fin 3) = 0 := hf.2.2.2.2.2.2.2.2.2.2.2.2.2.2.1
  have q0 : win0_4.index t (0 : Fin 3) = (i 0).val := congrFun ht 0
  have q1 : win0_4.index t (1 : Fin 3) = (i 1).val / 512 := congrFun ht 1
  refine ⟨t, flush0_5 t, ?_⟩
  rw [mem_blk_output]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 64 ≤ (i 2).val ∧ (i 2).val < win0_5.index t (2 : Fin 3) * 64 + 64; omega

/-- The output array after the run is the specification's. -/
theorem final_output (c : Dev nD) :
    (dats m 0 c).arrAt 5 cfg0.N
      = output (m ((c : Thread nD τ).loc main_arg0)) (m ((c : Thread nD τ).loc main_arg1)) (m ((c : Thread nD τ).loc main_arg2))
          (m ((c : Thread nD τ).loc main_arg3)) :=
  (dats m 0 c).arrAt_eq_of_cover 5 _ (fun t _ => flushed_output m c t) cover_output

/-! ## The run -/

/-- Every weakly fair execution of the idealized kernel ends with the weights array and the output array at the
    specification's functions of the arguments, the arguments unchanged. -/
theorem run : θ_run defs (onTc (τ := τ) (main (F := Ideal))) ⟨m, fun _ => 0, ρ⟩ fun r => ∀ c : Dev nD,
      r.2.mem ((c : Thread nD τ).loc main_v1_0)
        = weights (m ((c : Thread nD τ).loc main_arg0)) (m ((c : Thread nD τ).loc main_arg1)) (m ((c : Thread nD τ).loc main_arg3))
      ∧ r.2.mem ((c : Thread nD τ).loc main_v1_1)
        = output (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_weights m c), (h c).2.1.trans (final_output m c), (h c).2.2⟩)
    (Cert.KernelIdeal.Value.run_blocks m ρ)

end Cert.KernelIdeal.ArrayValue

end
-- ==== Proof.RefSide.lean ====
/-
  The reference, read one operation at a time, computes the attention weights and the attention output of the
  specification: its dot product, division by the scale, select on the mask bit and division by the temperature are a
  row's scores; its maximum along the key axis (from −∞, and once more against −∞) is the row's top; its exponential of
  the difference, its sum along the key axis (from 0) and its quotient are the row's weights; and its second dot
  product is the weighted sum of the value rows.
-/
import proofs.«124236_j44341242364479_1_alg».proof.Proof.Gen.ReferenceIdeal.Read
import proofs.«124236_j44341242364479_1_alg».proof.Proof.Spec
import proofs.«124236_j44341242364479_1_alg».proof.Proof.LibRows

noncomputable section

namespace Cert.ReferenceIdeal.RefValue

open Cert.ReferenceIdeal Cert.ReferenceIdeal.Gen Cert.ReferenceIdeal.Read Idealize.ShloMosaic Idealize.ShloMosaic.ValueIdx Cert.Attention

variable (q k v : (⟨S16x2048x64, .f32⟩ : BufTy).Contents (Elt Ideal)) (mask : (⟨S16x2048x2048, .i1⟩ : BufTy).Contents (Elt Ideal))

/-- The reference's logits at (b, n, j) are the specification's score of key j for query row (b, n). -/
theorem score_eq (b : Fin 16) (n j : Fin 2048) :
    val_main_v5 (F := Ideal) q k mask (ix3 b n j) = score q k mask b n j := by
  have el : ∀ d : Fin 64, lidx_main_v0 (ix3 b n j) d = ix3 b n d := fun d => funext fun a => Fin.ext (by
    match a with | ⟨0, _⟩ => rfl | ⟨1, _⟩ => rfl | ⟨2, _⟩ => rfl)
  have er : ∀ d : Fin 64, ridx_main_v0 (ix3 b n j) d = ix3 b j d := fun d => funext fun a => Fin.ext (by
    match a with | ⟨0, _⟩ => rfl | ⟨1, _⟩ => rfl | ⟨2, _⟩ => rfl)
  rw [val_main_v5_apply, val_main_v3_apply, val_main_v2_apply, val_main_v0_apply, val_main_v1_apply, val_main_v4_apply,
    val_main_call0_v1_apply]
  simp only [el, er, val_main_cst_apply, val_main_cst_1_apply, val_main_call0_v0_apply, val_main_cst_0_apply,
    Ideal.hostDivf_def, Ideal.ofBits_def]
  rfl

/-- The reference's row maximum at (b, n) is the top of that row of scores. -/
theorem top_eq (b : Fin 16) (n : Fin 2048) :
    val_main_v8 (F := Ideal) q k mask (ix2 b n) = rowTop (score q k mask b n) := by
  rw [val_main_v8_apply, val_main_v7_apply, val_main_cst_3_apply]
  unfold val_main_v6
  rw [Cert.LibRows.hostRowMax_apply (val_main_v5 (F := Ideal) q k mask) (val_main_cst_2 (F := Ideal))
    reducesTo_S16x2048x2048_S16x2048_d2 (by decide) h_S_ b n]
  have hs : (fun j : Fin 2048 => val_main_v5 (F := Ideal) q k mask (ix3 b n j)) = score q k mask b n :=
    funext fun j => score_eq q k mask b n j
  rw [hs, val_main_cst_2_apply]
  rfl

/-- The reference's exponentials at (b, n, j) are that row's exponentials. -/
theorem exp_eq (b : Fin 16) (n j : Fin 2048) :
    val_main_v12 (F := Ideal) q k mask (ix3 b n j) = rowExp (score q k mask b n) j := by
  have e9 : idx_main_v9 (idx_main_v10 (ix3 b n j)) = ix2 b n := funext fun a => Fin.ext (by
    match a with | ⟨0, _⟩ => rfl | ⟨1, _⟩ => rfl)
  rw [val_main_v12_apply, val_main_v11_apply, val_main_v10_apply, val_main_v9_apply, e9, top_eq, score_eq]
  rfl

/-- The reference's row sum at (b, n) is the sum of that row's exponentials. -/
theorem sum_eq (b : Fin 16) (n : Fin 2048) :
    val_main_v13 (F := Ideal) q k mask (ix2 b n) = ∑ l : Fin 2048, rowExp (score q k mask b n) l := by
  have ei : ∀ l : Fin 2048, idx_main_v13 (ix2 b n) l = ix3 b n l := fun l => funext fun a => Fin.ext (by
    match a with | ⟨0, _⟩ => rfl | ⟨1, _⟩ => rfl | ⟨2, _⟩ => rfl)
  rw [val_main_v13_apply, val_main_cst_4_apply]
  simp only [ei, exp_eq, Ideal.ofBits_def, Ideal.ofBits_zero_f32, zero_add]

/-- The reference's first result is the array of attention weights. -/
theorem weights_eq : val_main_v16 (F := Ideal) q k mask = weights q k mask := by
  funext i
  obtain ⟨b, n, j, rfl⟩ : ∃ (b : Fin 16) (n j : Fin 2048), i = ix3 b n j := ⟨i 0, i 1, i 2, eq_ix3 i⟩
  have e14 : idx_main_v14 (idx_main_v15 (ix3 b n j)) = ix2 b n := funext fun a => Fin.ext (by
    match a with | ⟨0, _⟩ => rfl | ⟨1, _⟩ => rfl)
  rw [val_main_v16_apply, val_main_v15_apply, val_main_v14_apply, e14, sum_eq, exp_eq]
  rfl

/-- The reference's second result is the array of attention outputs. -/
theorem output_eq : val_main_v17 (F := Ideal) q k v mask = output q k v mask := by
  funext i
  rw [val_main_v17_apply, weights_eq]
  refine Finset.sum_congr rfl fun l _ => ?_
  have el : lidx_main_v17 i l = ix3 (i 0) (i 1) l := funext fun a => Fin.ext (by
    match a with | ⟨0, _⟩ => rfl | ⟨1, _⟩ => rfl | ⟨2, _⟩ => rfl)
  have er : ridx_main_v17 i l = ix3 (i 0) l (i 2) := funext fun a => Fin.ext (by
    match a with | ⟨0, _⟩ => rfl | ⟨1, _⟩ => rfl | ⟨2, _⟩ => rfl)
  rw [el, er]
  rfl

end Cert.ReferenceIdeal.RefValue

end
-- ==== Proof.lean ====
/-
  Masked soft-max attention with a fixed temperature: a tiled kernel against the whole-array formulation, equal over
  the extended reals.

  Both programs compute, for each batch b and query row n, the scores  s_j = select(mask, −∞, (q_n · k_j) / 8) / T
  over the 2048 keys j, the row's top  max(−∞, max_j s_j), the exponentials  exp(s_j − top), the weights
  exp(s_j − top) / Σ_l exp(s_l − top)  (the first result) and the weighted sum of the value rows (the second). The
  kernel does this for 512 query rows of one batch at a time, from the mask widened to 32-bit words and tested against
  zero; the reference does it for all rows at once. A dot product is the same finite sum of products on both sides, a
  row maximum the same fold of `max` from −∞, a row sum the same finite sum, the quotients the same division, and the
  three float words (−∞, 8, the temperature T) are the same words: so each side is the specification's function of the
  arguments (`Cert.Attention.weights`, `Cert.Attention.output`), index by index, with no appeal to finiteness of the
  inputs. The ideal pass rewrote nothing, so the idealized kernel is the kernel's own text read over the extended reals.
-/
import proofs.«124236_j44341242364479_1_alg».proof.Defs
import proofs.«124236_j44341242364479_1_alg».proof.Proof.Gen.Kernel
import proofs.«124236_j44341242364479_1_alg».proof.Proof.Gen.Kernel.Skeleton
import proofs.«124236_j44341242364479_1_alg».proof.Proof.Gen.Kernel.Launch
import proofs.«124236_j44341242364479_1_alg».proof.Proof.Gen.Kernel.Points
import proofs.«124236_j44341242364479_1_alg».proof.Proof.Gen.Kernel.Frame
import proofs.«124236_j44341242364479_1_alg».proof.Proof.Gen.KernelIdeal
import proofs.«124236_j44341242364479_1_alg».proof.Proof.Gen.KernelIdeal.Skeleton
import proofs.«124236_j44341242364479_1_alg».proof.Proof.Gen.KernelIdeal.Launch
import proofs.«124236_j44341242364479_1_alg».proof.Proof.Gen.KernelIdeal.Points
import proofs.«124236_j44341242364479_1_alg».proof.Proof.Gen.KernelIdeal.Frame
import proofs.«124236_j44341242364479_1_alg».proof.Proof.Gen.ReferenceIdeal
import proofs.«124236_j44341242364479_1_alg».proof.Proof.Gen.KernelIdeal.Value
import proofs.«124236_j44341242364479_1_alg».proof.Proof.Gen.ReferenceIdeal.Run
import proofs.«124236_j44341242364479_1_alg».proof.Proof.Gen.ReferenceIdeal.Read
import proofs.«124236_j44341242364479_1_alg».proof.Proof.Gen.Pre_finite_inputs
import proofs.«124236_j44341242364479_1_alg».proof.Proof.KernelBlocks
import proofs.«124236_j44341242364479_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten on the way to the extended reals. -/
theorem preserves : Cert.preserves_Kernel_KernelIdeal := trivial

/-- From arguments that agree, the kernel ends with the specification's weights and output of its arguments, and the
    reference with the specification's weights and output of its own: the same arrays. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v16_eq, Cert.ReferenceIdeal.RefValue.weights_eq,
      (hagree c).1, (hagree c).2.1, (hagree c).2.2.2]
  · rw [(h c).2.1, Cert.ReferenceIdeal.Read.val_main_v17_eq, Cert.ReferenceIdeal.RefValue.output_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
